-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S4x4096x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S1024x1024 : Shape := ⟨2, ![1024, 1024]⟩
abbrev S_ : Shape := ⟨0, ![]⟩
abbrev S1024x3072 : Shape := ⟨2, ![1024, 3072]⟩
abbrev S1x3072 : Shape := ⟨2, ![1, 3072]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S4x4096x3072 : Shape := ⟨3, ![4, 4096, 3072]⟩

abbrev nBuf : Space → Nat
  | .hbm => 27
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S3072x1024, .f32⟩
  | .hbm, ⟨21, _⟩ => ⟨S1024x3072, .f32⟩
  | .hbm, ⟨22, _⟩ => ⟨S1024x3072, .bf16⟩
  | .hbm, ⟨23, _⟩ => ⟨S1x3072, .f32⟩
  | .hbm, ⟨24, _⟩ => ⟨S16384x1024, .f32⟩
  | .hbm, ⟨25, _⟩ => ⟨S16384x3072, .f32⟩
  | .hbm, ⟨26, _⟩ => ⟨S4x4096x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S3072x1024_S1024x1024_0_0 : S3072x1024.Slices ![0, 0] S1024x1024
  bcast_S_S1024x1024 : S_.BroadcastsInDim S1024x1024 (![] : Fin 0 → Fin S1024x1024.rank)
  slices_S3072x1024_S1024x1024_1024_0 : S3072x1024.Slices ![1024, 0] S1024x1024
  slices_S3072x1024_S1024x1024_2048_0 : S3072x1024.Slices ![2048, 0] S1024x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  shapeCasts_S3072_S1x3072 : S3072.ShapeCasts S1x3072
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S16384x3072_S4x4096x3072 : S16384x3072.ShapeCasts S4x4096x3072
  dot_S1024x16_S16x1024_S1024x1024_1_0_0_1_n_n_wf : DotDims.WF S1024x16 S16x1024 S1024x1024 [1] [0] [0] [1] [] []
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .f32 = 32 ∨ (Rect.block (s := S16384x3072) S512x3072.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_v15) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S4x4096x3072 : Shape := ⟨3, ![4, 4096, 3072]⟩
abbrev S1x1x3072 : Shape := ⟨3, ![1, 1, 3072]⟩
abbrev S4x4096x16 : Shape := ⟨3, ![4, 4096, 16]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S4x4096x3072, .f32⟩
  | .hbm, ⟨8, _⟩ => ⟨S1x1x3072, .f32⟩
  | .hbm, ⟨9, _⟩ => ⟨S4x4096x3072, .f32⟩
  | .hbm, ⟨10, _⟩ => ⟨S4x4096x3072, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x16, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x16, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  bcast_S_S4x4096x1024 : S_.BroadcastsInDim S4x4096x1024 (![] : Fin 0 → Fin S4x4096x1024.rank)
  concatenates_S4x4096x1024_S4x4096x1024_S4x4096x1024_S4x4096x3072_d2 : Shape.Concatenates [S4x4096x1024, S4x4096x1024, S4x4096x1024] S4x4096x3072 2
  dot_S4x4096x1024_S3072x1024_S4x4096x3072_2_1_01_0_n_n_wf : DotDims.WF S4x4096x1024 S3072x1024 S4x4096x3072 [2] [1] [0, 1] [0] [] []
  dot_S4x4096x1024_S16x1024_S4x4096x16_2_1_01_0_n_n_wf : DotDims.WF S4x4096x1024 S16x1024 S4x4096x16 [2] [1] [0, 1] [0] [] []
  dot_S4x4096x16_S1024x16_S4x4096x1024_2_1_01_0_n_n_wf : DotDims.WF S4x4096x16 S1024x16 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S16x1024_S4x4096x16_2_1_01_0_n_n : DotDims S4x4096x1024 S16x1024 S4x4096x16 where
  lhsContracting := [2]
  rhsContracting := [1]
  lhsNonContracting := [0, 1]
  rhsNonContracting := [0]
  lhsBatch := []
  rhsBatch := []
  wf := dot_S4x4096x1024_S16x1024_S4x4096x16_2_1_01_0_n_n_wf
def dot_S4x4096x16_S1024x16_S4x4096x1024_2_1_01_0_n_n : DotDims S4x4096x16 S1024x16 S4x4096x1024 where
  lhsContracting := [2]
  rhsContracting := [1]
  lhsNonContracting := [0, 1]
  rhsNonContracting := [0]
  lhsBatch := []
  rhsBatch := []
  wf := dot_S4x4096x16_S1024x16_S4x4096x1024_2_1_01_0_n_n_wf

class Facts : Prop extends Facts₀ where

variable [Facts]
-- ==== Proof.FrameBits.lean ====
/-
  The frame of the fused QKV projection, read at any float instance.

  @main is eighteen host operations (the two rank-16 adapter products, their scaling by 1/16, the three row
  bands of the base weight put back together, the transpose, the change of format, two reshapes), ONE pipelined
  region over 32 grid points, and one reshape of the result. The region's body is a single covering store: it
  loads the 512×1024 block of activations, the whole resident 1024×3072 weight and the 1×3072 bias row, and writes
  the 512×3072 block of products plus bias over whatever the output buffer held.

  Here: the arrays as the region finds them (the host prefix folded over the launch memory), that no host
  operation writes an argument array, what the body leaves in the output buffer as a function of its three
  loads, the body's triple, the proof data of the pipeline, the body obligation at a symbolic grid point, and
  from these the run of @main: it terminates, faults nowhere, and ends with every argument array as launched.
-/
import proofs.«149950_j1468878815513_2_alg».proof.Proof.Gen.Kernel.Launch
import proofs.«149950_j1468878815513_2_alg».proof.Proof.Gen.Kernel.Skeleton
import proofs.«149950_j1468878815513_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the eighteen host operations before it, folded
    over the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates. -/
theorem prefix_fresh : (hostOps0 : List (HloOp τ sig (Elt F))).Forall fun op => op.fresh = ∅ := by
  simp only [List.Forall]; repeat' constructor
/-- Nor does the reshape after it. -/
theorem suffix_fresh : (hostOps1 : List (HloOp τ sig (Elt F))).Forall fun op => op.fresh = ∅ := by
  simp only [List.Forall]; repeat' constructor

/-- @main is the host prefix, the region, and the region's continuation by the final reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The final reshape touches only the pipeline's result array and a buffer that bypasses the pipeline. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- And it writes its own result (the rank-3 view of the products), which is none of the four windows' arrays. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- The seven argument arrays of @main. -/
abbrev argRefs : List (Ref sig .tc) := [main_arg0, main_arg1, main_arg2, main_arg3, main_arg4, main_arg5, main_arg6]

/-- Every host operation before the region writes a fresh intermediate, never an argument: the region finds each
    argument array as launched. -/
theorem V_arg (c : Dev nD) {b : Ref sig .tc} (hb : b ∈ argRefs) : V m c b = m ((c : Thread nD τ).loc b) := by
  simp only [argRefs, List.mem_cons, List.not_mem_nil, or_false] at hb
  rcases hb with rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.nary_writes, StableHlo.reshape_writes, Finset.mem_singleton]
      repeat' apply And.intro
      all_goals exact StableHlo.devRef_ne_of_ne (by decide)))

/-- Nor does the reshape after the region, and no argument is a window's array: each argument ends as launched. -/
theorem W_arg (dats : (p : Fin _) → (c : Dev nD) → Dat τ (Elt F) Unit ℕ (UR sig nD τ) ℕ (cfgs p) c) (c : Dev nD)
    {b : Ref sig .tc} (hb : b ∈ argRefs) :
    Pipeline.afterTail₀ cfgs dats 0 (V0 m) [hostOps1] c b = m ((c : Thread nD τ).loc b) := by
  have hV := V_arg m c hb
  have hne : ∀ w, Pipeline.arrRef spec0 w ≠ b := by
    simp only [argRefs, List.mem_cons, List.not_mem_nil, or_false] at hb
    rcases hb with rfl | rfl | rfl | rfl | rfl | rfl | rfl
    all_goals decide
  have hres : b ≠ main_v17 := by
    simp only [argRefs, List.mem_cons, List.not_mem_nil, or_false] at hb
    rcases hb with rfl | rfl | rfl | rfl | rfl | rfl | rfl
    all_goals decide
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hres)),
    Pipeline.withArrays_of_ne _ c (V0 m c) _ b hne]
  exact hV

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block of rows at every point (it is fetched at every point). -/
theorem before_x {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The resident weight's staging buffer holds the whole weight at every point: fetched once, and the body
    leaves it in place, its block index never moving. -/
theorem before_w {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Likewise the bias row's. -/
theorem before_b {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run of @main to the library's frame post — every buffer outside the pipeline as the final reshape leaves
    it — read at the seven argument arrays. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (Pipeline.mem_restRefs_of main_arg0 (by decide) (by decide))).trans (W_arg m dats c (by simp [argRefs])),
      ((h c).2 main_arg1 (Pipeline.mem_restRefs_of main_arg1 (by decide) (by decide))).trans (W_arg m dats c (by simp [argRefs])),
      ((h c).2 main_arg2 (Pipeline.mem_restRefs_of main_arg2 (by decide) (by decide))).trans (W_arg m dats c (by simp [argRefs])),
      ((h c).2 main_arg3 (Pipeline.mem_restRefs_of main_arg3 (by decide) (by decide))).trans (W_arg m dats c (by simp [argRefs])),
      ((h c).2 main_arg4 (Pipeline.mem_restRefs_of main_arg4 (by decide) (by decide))).trans (W_arg m dats c (by simp [argRefs])),
      ((h c).2 main_arg5 (Pipeline.mem_restRefs_of main_arg5 (by decide) (by decide))).trans (W_arg m dats c (by simp [argRefs])),
      ((h c).2 main_arg6 (Pipeline.mem_restRefs_of main_arg6 (by decide) (by decide))).trans (W_arg m dats c (by simp [argRefs]))⟩) h

/-! ## The body's accesses: each the whole of its buffer -/

abbrev rx : Rect S512x1024 := Rect.unit (s := S512x1024) ![0, 0] S512x1024.size inb_S512x1024_S512x1024_0_0
abbrev rw' : Rect S1024x3072 := Rect.unit (s := S1024x3072) ![0, 0] S1024x3072.size inb_S1024x3072_S1024x3072_0_0
abbrev rb : Rect S1x3072 := Rect.unit (s := S1x3072) ![0, 0] S1x3072.size inb_S1x3072_S1x3072_0_0
abbrev ro : Rect S512x3072 := Rect.unit (s := S512x3072) ![0, 0] S512x3072.size inb_S512x3072_S512x3072_0_0

/-- What the body leaves in the output's staging buffer: its one store, over the three loads. -/
def outBlock (x : Vec F S512x1024 .f32) (w : Vec F S1024x3072 .bf16) (b : Vec F S1x3072 .f32) : Vec F S512x3072 .f32 :=
  View.canon [⟨ro, k0_pay1 (View.ld x rx) (View.ld w rw') (View.ld b rb)⟩]

/-- The one store is of the whole buffer, so it covers it. -/
theorem store_covers (p0 : Vec F S512x3072 .f32) (y : S512x3072.Idx) :
    ∃ pc ∈ ([⟨ro, p0⟩] : List (View.Piece (Elt F) S512x3072 .f32)), y ∈ pc.1.set :=
  View.cover_of_tiled [⟨ro, p0⟩] S512x3072.size (by rfl) y

/-! ## The body's triple -/

set_option maxHeartbeats 1000000 in
/-- On whole staging memrefs, the three inputs' at contents `x`, `w`, `b` and the output's at anything, the body
    runs to its continuation with the inputs' as they were and the output's at `outBlock x w b`. (It also loads
    the output buffer before storing; the loaded value is not used.) -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .f32) (harg4 : arg4.IsWhole)
    (x : Vec F S512x1024 .f32) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outBlock x w b)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- On core `c`: the arrays as the region finds them; after the body at point `t` each input's buffer still at
    its block and the output's at `outBlock` of the three input blocks; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) :
    (dats m 0 c).after 3 t = outBlock (iblk m c 0 t) (iblk m c 1 t) (iblk m c 2 t) := by dsimp only [dats]

theorem before_x' (c : Dev nD) (t : Fin cfg0.N) (d) : (dats m 0 c).before 0 t d = iblk m c 0 t :=
  before_x m (dats m 0 c) (A_eq m c 0) (after_x m c) t d
theorem before_w' (c : Dev nD) (t : Fin cfg0.N) (d) : (dats m 0 c).before 1 t d = iblk m c 1 t :=
  before_w m (dats m 0 c) (A_eq m c 1) (after_w m c) t d
theorem before_b' (c : Dev nD) (t : Fin cfg0.N) (d) : (dats m 0 c).before 2 t d = iblk m c 2 t :=
  before_b m (dats m 0 c) (A_eq m c 2) (after_b m c) t d

/-! ## The body obligation at a symbolic grid point -/

/-- What the pipeline calls the body with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it must return. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The inputs' buffers hold their blocks, so the body's triple applies; the invariant and the core's debt pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x', before_w', before_b']
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each window's array holds what
    the proof data's blocks compose to, and every other unscoped buffer what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_sub) (hfresh := suffix_fresh') (hkeep := suffix_keeps)
    (hmain := hmain m Variants.none) (hA := A_eq m) (hΦ := fun _ _ => rfl)

/-- The frame: @main runs, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Around

end
-- ==== Proof.FrameIdeal.lean ====
/-
  The frame of the fused QKV projection, read at any float instance.

  @main is eighteen host operations (the two rank-16 adapter products, their scaling by 1/16, the three row
  bands of the base weight put back together, the transpose, the change of format, two reshapes), ONE pipelined
  region over 32 grid points, and one reshape of the result. The region's body is a single covering store: it
  loads the 512×1024 block of activations, the whole resident 1024×3072 weight and the 1×3072 bias row, and writes
  the 512×3072 block of products plus bias over whatever the output buffer held.

  Here: the arrays as the region finds them (the host prefix folded over the launch memory), that no host
  operation writes an argument array, what the body leaves in the output buffer as a function of its three
  loads, the body's triple, the proof data of the pipeline, the body obligation at a symbolic grid point, and
  from these the run of @main: it terminates, faults nowhere, and ends with every argument array as launched.
-/
import proofs.«149950_j1468878815513_2_alg».proof.Proof.Gen.KernelIdeal.Launch
import proofs.«149950_j1468878815513_2_alg».proof.Proof.Gen.KernelIdeal.Skeleton
import proofs.«149950_j1468878815513_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the eighteen host operations before it, folded
    over the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates. -/
theorem prefix_fresh : (hostOps0 : List (HloOp τ sig (Elt F))).Forall fun op => op.fresh = ∅ := by
  simp only [List.Forall]; repeat' constructor
/-- Nor does the reshape after it. -/
theorem suffix_fresh : (hostOps1 : List (HloOp τ sig (Elt F))).Forall fun op => op.fresh = ∅ := by
  simp only [List.Forall]; repeat' constructor

/-- @main is the host prefix, the region, and the region's continuation by the final reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The final reshape touches only the pipeline's result array and a buffer that bypasses the pipeline. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- And it writes its own result (the rank-3 view of the products), which is none of the four windows' arrays. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- The seven argument arrays of @main. -/
abbrev argRefs : List (Ref sig .tc) := [main_arg0, main_arg1, main_arg2, main_arg3, main_arg4, main_arg5, main_arg6]

/-- Every host operation before the region writes a fresh intermediate, never an argument: the region finds each
    argument array as launched. -/
theorem V_arg (c : Dev nD) {b : Ref sig .tc} (hb : b ∈ argRefs) : V m c b = m ((c : Thread nD τ).loc b) := by
  simp only [argRefs, List.mem_cons, List.not_mem_nil, or_false] at hb
  rcases hb with rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.nary_writes, StableHlo.reshape_writes, Finset.mem_singleton]
      repeat' apply And.intro
      all_goals exact StableHlo.devRef_ne_of_ne (by decide)))

/-- Nor does the reshape after the region, and no argument is a window's array: each argument ends as launched. -/
theorem W_arg (dats : (p : Fin _) → (c : Dev nD) → Dat τ (Elt F) Unit ℕ (UR sig nD τ) ℕ (cfgs p) c) (c : Dev nD)
    {b : Ref sig .tc} (hb : b ∈ argRefs) :
    Pipeline.afterTail₀ cfgs dats 0 (V0 m) [hostOps1] c b = m ((c : Thread nD τ).loc b) := by
  have hV := V_arg m c hb
  have hne : ∀ w, Pipeline.arrRef spec0 w ≠ b := by
    simp only [argRefs, List.mem_cons, List.not_mem_nil, or_false] at hb
    rcases hb with rfl | rfl | rfl | rfl | rfl | rfl | rfl
    all_goals decide
  have hres : b ≠ main_v17 := by
    simp only [argRefs, List.mem_cons, List.not_mem_nil, or_false] at hb
    rcases hb with rfl | rfl | rfl | rfl | rfl | rfl | rfl
    all_goals decide
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hres)),
    Pipeline.withArrays_of_ne _ c (V0 m c) _ b hne]
  exact hV

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block of rows at every point (it is fetched at every point). -/
theorem before_x {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The resident weight's staging buffer holds the whole weight at every point: fetched once, and the body
    leaves it in place, its block index never moving. -/
theorem before_w {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Likewise the bias row's. -/
theorem before_b {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run of @main to the library's frame post — every buffer outside the pipeline as the final reshape leaves
    it — read at the seven argument arrays. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (Pipeline.mem_restRefs_of main_arg0 (by decide) (by decide))).trans (W_arg m dats c (by simp [argRefs])),
      ((h c).2 main_arg1 (Pipeline.mem_restRefs_of main_arg1 (by decide) (by decide))).trans (W_arg m dats c (by simp [argRefs])),
      ((h c).2 main_arg2 (Pipeline.mem_restRefs_of main_arg2 (by decide) (by decide))).trans (W_arg m dats c (by simp [argRefs])),
      ((h c).2 main_arg3 (Pipeline.mem_restRefs_of main_arg3 (by decide) (by decide))).trans (W_arg m dats c (by simp [argRefs])),
      ((h c).2 main_arg4 (Pipeline.mem_restRefs_of main_arg4 (by decide) (by decide))).trans (W_arg m dats c (by simp [argRefs])),
      ((h c).2 main_arg5 (Pipeline.mem_restRefs_of main_arg5 (by decide) (by decide))).trans (W_arg m dats c (by simp [argRefs])),
      ((h c).2 main_arg6 (Pipeline.mem_restRefs_of main_arg6 (by decide) (by decide))).trans (W_arg m dats c (by simp [argRefs]))⟩) h

/-! ## The body's accesses: each the whole of its buffer -/

abbrev rx : Rect S512x1024 := Rect.unit (s := S512x1024) ![0, 0] S512x1024.size inb_S512x1024_S512x1024_0_0
abbrev rw' : Rect S1024x3072 := Rect.unit (s := S1024x3072) ![0, 0] S1024x3072.size inb_S1024x3072_S1024x3072_0_0
abbrev rb : Rect S1x3072 := Rect.unit (s := S1x3072) ![0, 0] S1x3072.size inb_S1x3072_S1x3072_0_0
abbrev ro : Rect S512x3072 := Rect.unit (s := S512x3072) ![0, 0] S512x3072.size inb_S512x3072_S512x3072_0_0

/-- What the body leaves in the output's staging buffer: its one store, over the three loads. -/
def outBlock (x : Vec F S512x1024 .f32) (w : Vec F S1024x3072 .bf16) (b : Vec F S1x3072 .f32) : Vec F S512x3072 .f32 :=
  View.canon [⟨ro, k0_pay1 (View.ld x rx) (View.ld w rw') (View.ld b rb)⟩]

/-- The one store is of the whole buffer, so it covers it. -/
theorem store_covers (p0 : Vec F S512x3072 .f32) (y : S512x3072.Idx) :
    ∃ pc ∈ ([⟨ro, p0⟩] : List (View.Piece (Elt F) S512x3072 .f32)), y ∈ pc.1.set :=
  View.cover_of_tiled [⟨ro, p0⟩] S512x3072.size (by rfl) y

/-! ## The body's triple -/

set_option maxHeartbeats 1000000 in
/-- On whole staging memrefs, the three inputs' at contents `x`, `w`, `b` and the output's at anything, the body
    runs to its continuation with the inputs' as they were and the output's at `outBlock x w b`. (It also loads
    the output buffer before storing; the loaded value is not used.) -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .f32) (harg4 : arg4.IsWhole)
    (x : Vec F S512x1024 .f32) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outBlock x w b)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- On core `c`: the arrays as the region finds them; after the body at point `t` each input's buffer still at
    its block and the output's at `outBlock` of the three input blocks; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) :
    (dats m 0 c).after 3 t = outBlock (iblk m c 0 t) (iblk m c 1 t) (iblk m c 2 t) := by dsimp only [dats]

theorem before_x' (c : Dev nD) (t : Fin cfg0.N) (d) : (dats m 0 c).before 0 t d = iblk m c 0 t :=
  before_x m (dats m 0 c) (A_eq m c 0) (after_x m c) t d
theorem before_w' (c : Dev nD) (t : Fin cfg0.N) (d) : (dats m 0 c).before 1 t d = iblk m c 1 t :=
  before_w m (dats m 0 c) (A_eq m c 1) (after_w m c) t d
theorem before_b' (c : Dev nD) (t : Fin cfg0.N) (d) : (dats m 0 c).before 2 t d = iblk m c 2 t :=
  before_b m (dats m 0 c) (A_eq m c 2) (after_b m c) t d

/-! ## The body obligation at a symbolic grid point -/

/-- What the pipeline calls the body with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it must return. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The inputs' buffers hold their blocks, so the body's triple applies; the invariant and the core's debt pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x', before_w', before_b']
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each window's array holds what
    the proof data's blocks compose to, and every other unscoped buffer what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_sub) (hfresh := suffix_fresh') (hkeep := suffix_keeps)
    (hmain := hmain m Variants.none) (hA := A_eq m) (hΦ := fun _ _ => rfl)

/-- The frame: @main runs, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Around

end
-- ==== Proof.BlockEntry.lean ====
/-
  One 512×3072 block of the fused projection, entry by entry, at the exact real-number reading of floats.

  The body's single stored value is, as a function of its three loads (the block of activations `x`, the resident
  weight `w` already transposed to 1024×3072, the bias row `b`):
      out[p, q] = Σ_k x[p, k] · w[k, q] + b[0, q].
  A change of float format is the identity at this reading, a product into a zero accumulator is the plain sum of
  products, and broadcasting the 1×3072 row down the 512 rows reads row 0.
-/
import proofs.«149950_j1468878815513_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## The contraction's operand indices: row of the left, column of the right, the contracted coordinate shared -/

theorem lhs_row (j : S512x3072.Idx) (q : dot_S512x1024_S1024x3072_S512x3072_1_0_0_1_n_n.contr.Idx) :
    (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
theorem lhs_contracted (j : S512x3072.Idx) (q : dot_S512x1024_S1024x3072_S512x3072_1_0_0_1_n_n.contr.Idx) :
    (dot_S512x1024_S1024x3072_S512x3072_1_0_0_1_n_n.lhsIdx j q 1).val = (q ⟨0, by decide⟩).val :=
  dot_S512x1024_S1024x3072_S512x3072_1_0_0_1_n_n.lhsIdx_val_of_single rfl j q
theorem rhs_contracted (j : S512x3072.Idx) (q : dot_S512x1024_S1024x3072_S512x3072_1_0_0_1_n_n.contr.Idx) :
    (dot_S512x1024_S1024x3072_S512x3072_1_0_0_1_n_n.rhsIdx j q 0).val = (q ⟨0, by decide⟩).val :=
  dot_S512x1024_S1024x3072_S512x3072_1_0_0_1_n_n.rhsIdx_val_of_single rfl j q
theorem rhs_col (j : S512x3072.Idx) (q : dot_S512x1024_S1024x3072_S512x3072_1_0_0_1_n_n.contr.Idx) :
    (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The product into a zero accumulator, at row `p` and column `q`: the sum over the 1024 contracted positions. -/
theorem product_at (l : FVec Ideal S512x1024 .bf16) (r : FVec Ideal S1024x3072 .bf16) (p : Fin 512) (q : Fin 3072) :
    matmul dot_S512x1024_S1024x3072_S512x3072_1_0_0_1_n_n none l r (constant S512x3072 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact lhs_row _ _
    | ⟨1, _⟩ => exact (lhs_contracted _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (rhs_contracted _ _).trans hk
    | ⟨1, _⟩ => exact rhs_col _ _)
  rw [el, er]

/-- The bias row broadcast down the block reads the row's entry of that column. -/
theorem bias_at (b : FVec Ideal S1x3072 .f32) (p : Fin 512) (q : Fin 3072) :
    broadcastTo S512x3072 b broadcasts_S1x3072_S512x3072 (ix2 p q) = b (ix2 (0 : Fin 1) q) :=
  broadcastTo_apply b broadcasts_S1x3072_S512x3072 (ix2 p q) (ix2 (0 : Fin 1) q) (fun a => by
    match a with
    | ⟨0, _⟩ => rfl
    | ⟨1, _⟩ => rfl)

/-- The stored value at row `p`, column `q`. -/
theorem stored_at (x : Vec Ideal S512x1024 .f32) (w : Vec Ideal S1024x3072 .bf16) (b : Vec Ideal S1x3072 .f32)
    (p : Fin 512) (q : Fin 3072) :
    k0_pay1 x w b (ix2 p q) = (∑ k : Fin 1024, x (ix2 p k) * w (ix2 k q)) + b (ix2 (0 : Fin 1) q) := by
  unfold k0_pay1
  rw [shapeCast_self, shapeCast_self, shapeCast_self]
  refine (addf_apply _ _ _).trans ?_
  rw [product_at, bias_at]
  rfl

end Cert.KernelIdeal.BlockValue

end
-- ==== Proof.WeightEntry.lean ====
/-
  The folded weight the host computes before the launch, entry by entry, at the exact real-number reading.

  From the base weight `w` (3072×1024) and the two adapters (`p` 1024×16 up-projections, `a` 16×1024
  down-projections) the host forms, band by band of 1024 rows,
      queries: w[o, k] + scale · Σ_r pq[o, r] · aq[r, k],    keys: w[1024 + o, k],
      values:  w[2048 + o, k] + scale · Σ_r pv[o, r] · av[r, k],
  puts the three bands back one under the other, transposes, and changes the format (the identity here). So the
  entry at row `k`, column `o` of the folded weight is read in the band holding `o`.
-/
import proofs.«149950_j1468878815513_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.WeightValue

open Cert.KernelIdeal Cert.KernelIdeal.Gen Idealize.ShloMosaic Idealize.ShloMosaic.ValueIdx

/-- The adapters' scaling constant, as the extended real its bit pattern denotes. -/
abbrev scale : EReal := Ideal.ofBits .f32 0x3D800000#32

abbrev qcol (o : Fin 1024) : Fin 3072 := ⟨o.val, by have := o.isLt; omega⟩
abbrev kcol (o : Fin 1024) : Fin 3072 := ⟨1024 + o.val, by have := o.isLt; omega⟩
abbrev vcol (o : Fin 1024) : Fin 3072 := ⟨2048 + o.val, by have := o.isLt; omega⟩

/-! ## The adapter product `p · a` on the host: rows of `p` against columns of `a` -/

theorem lhs_row (j : S1024x1024.Idx) (q : dot_S1024x16_S16x1024_S1024x1024_1_0_0_1_n_n.contr.Idx) :
    (dot_S1024x16_S16x1024_S1024x1024_1_0_0_1_n_n.lhsIdx j q 0).val = (j 0).val := by
  unfold DotDims.lhsIdx
  rw [dif_neg (show ¬(0 : Fin S1024x16.rank) ∈ dot_S1024x16_S16x1024_S1024x1024_1_0_0_1_n_n.lhsBatch by decide),
    dif_pos (show (0 : Fin S1024x16.rank) ∈ dot_S1024x16_S16x1024_S1024x1024_1_0_0_1_n_n.lhsNonContracting by decide)]
  rfl
theorem lhs_contracted (j : S1024x1024.Idx) (q : dot_S1024x16_S16x1024_S1024x1024_1_0_0_1_n_n.contr.Idx) :
    (dot_S1024x16_S16x1024_S1024x1024_1_0_0_1_n_n.lhsIdx j q 1).val = (q ⟨0, by decide⟩).val :=
  dot_S1024x16_S16x1024_S1024x1024_1_0_0_1_n_n.lhsIdx_val_of_single rfl j q
theorem rhs_contracted (j : S1024x1024.Idx) (q : dot_S1024x16_S16x1024_S1024x1024_1_0_0_1_n_n.contr.Idx) :
    (dot_S1024x16_S16x1024_S1024x1024_1_0_0_1_n_n.rhsIdx j q 0).val = (q ⟨0, by decide⟩).val :=
  dot_S1024x16_S16x1024_S1024x1024_1_0_0_1_n_n.rhsIdx_val_of_single rfl j q
theorem rhs_col (j : S1024x1024.Idx) (q : dot_S1024x16_S16x1024_S1024x1024_1_0_0_1_n_n.contr.Idx) :
    (dot_S1024x16_S16x1024_S1024x1024_1_0_0_1_n_n.rhsIdx j q 1).val = (j 1).val := by
  unfold DotDims.rhsIdx
  rw [dif_neg (show ¬(1 : Fin S16x1024.rank) ∈ dot_S1024x16_S16x1024_S1024x1024_1_0_0_1_n_n.rhsBatch by decide),
    dif_pos (show (1 : Fin S16x1024.rank) ∈ dot_S1024x16_S16x1024_S1024x1024_1_0_0_1_n_n.rhsNonContracting by decide)]
  rfl

theorem adapter_product_at (p : FVec Ideal S1024x16 .f32) (a : FVec Ideal S16x1024 .f32) (o k : Fin 1024) :
    Host.dotGeneral dot_S1024x16_S16x1024_S1024x1024_1_0_0_1_n_n none p a (ix2 o k) = ∑ r : Fin 16, p (ix2 o r) * a (ix2 r k) := by
  simp only [Host.dotGeneral]
  rw [Ideal.dotGeneral_apply, ← Equiv.sum_comp (contrEquiv1 dot_S1024x16_S16x1024_S1024x1024_1_0_0_1_n_n 16 rfl rfl).symm]
  refine Finset.sum_congr rfl fun r _ => ?_
  have hr := contrEquiv1_symm_val dot_S1024x16_S16x1024_S1024x1024_1_0_0_1_n_n 16 rfl rfl r
  have el : dot_S1024x16_S16x1024_S1024x1024_1_0_0_1_n_n.lhsIdx (ix2 o k) ((contrEquiv1 dot_S1024x16_S16x1024_S1024x1024_1_0_0_1_n_n 16 rfl rfl).symm r) = ix2 o r := funext fun c => Fin.ext (by
    match c with
    | ⟨0, _⟩ => exact lhs_row _ _
    | ⟨1, _⟩ => exact (lhs_contracted _ _).trans hr)
  have er : dot_S1024x16_S16x1024_S1024x1024_1_0_0_1_n_n.rhsIdx (ix2 o k) ((contrEquiv1 dot_S1024x16_S16x1024_S1024x1024_1_0_0_1_n_n 16 rfl rfl).symm r) = ix2 r k := funext fun c => Fin.ext (by
    match c with
    | ⟨0, _⟩ => exact (rhs_contracted _ _).trans hr
    | ⟨1, _⟩ => exact rhs_col _ _)
  rw [el, er]

/-! ## One band with its adapter folded in -/

/-- A band of the base weight plus its scaled adapter product, as the host's operations spell it. -/
def foldedBand (off : Fin 2 → Nat) (h : S3072x1024.Slices off S1024x1024) (w : FVec Ideal S3072x1024 .f32)
    (p : FVec Ideal S1024x16 .f32) (a : FVec Ideal S16x1024 .f32) : FVec Ideal S1024x1024 .f32 :=
  addf (extractStridedSlice S1024x1024 off w h)
    (mulf (broadcastInDim S1024x1024 ![] bcast_S_S1024x1024 (constant (F := Ideal) S_ .f32 0x3D800000#32))
      (Host.dotGeneral dot_S1024x16_S16x1024_S1024x1024_1_0_0_1_n_n none p a))

theorem foldedBand_at (off : Fin 2 → Nat) (h : S3072x1024.Slices off S1024x1024) (w : FVec Ideal S3072x1024 .f32)
    (p : FVec Ideal S1024x16 .f32) (a : FVec Ideal S16x1024 .f32) (o k : Fin 1024) (o' : Fin 3072)
    (ho : o'.val = off 0 + o.val) (hk : off 1 = 0) :
    foldedBand off h w p a (ix2 o k) = w (ix2 o' k) + scale * ∑ r : Fin 16, p (ix2 o r) * a (ix2 r k) := by
  unfold foldedBand
  refine (addf_apply _ _ _).trans ?_
  rw [extractStridedSlice_apply off w h (ix2 o k) (ix2 o' k) (fun c => by
    match c with
    | ⟨0, _⟩ => exact ho
    | ⟨1, _⟩ => show k.val = off 1 + k.val; omega)]
  refine congrArg (w (ix2 o' k) + ·) ?_
  refine (mulf_apply _ _ _).trans ?_
  rw [adapter_product_at]
  rfl

/-! ## The folded weight -/

/-- The three bands one under the other, transposed, in the matrix unit's format. -/
def foldedWeight (w : FVec Ideal S3072x1024 .f32) (aq : FVec Ideal S16x1024 .f32) (pq : FVec Ideal S1024x16 .f32)
    (av : FVec Ideal S16x1024 .f32) (pv : FVec Ideal S1024x16 .f32) : FVec Ideal S1024x3072 .bf16 :=
  truncf .bf16 (transpose S1024x3072 [1, 0]
    (concatenate S3072x1024 0
      [⟨S1024x1024, foldedBand ![0, 0] slices_S3072x1024_S1024x1024_0_0 w pq aq⟩,
       ⟨S1024x1024, extractStridedSlice S1024x1024 ![1024, 0] w slices_S3072x1024_S1024x1024_1024_0⟩,
       ⟨S1024x1024, foldedBand ![2048, 0] slices_S3072x1024_S1024x1024_2048_0 w pv av⟩]
      concatenates_S1024x1024_S1024x1024_S1024x1024_S3072x1024_d0)
    transposes_S3072x1024_S1024x3072_1_0) bitsLt_bf16_f32

variable (w : FVec Ideal S3072x1024 .f32) (aq : FVec Ideal S16x1024 .f32) (pq : FVec Ideal S1024x16 .f32)
  (av : FVec Ideal S16x1024 .f32) (pv : FVec Ideal S1024x16 .f32)

/-- Row `k`, column `o` of the folded weight is row `o`, column `k` of the stacked bands. -/
theorem foldedWeight_transposed (k : Fin 1024) (o : Fin 3072) :
    foldedWeight w aq pq av pv (ix2 k o)
      = concatenate S3072x1024 0
          [⟨S1024x1024, foldedBand ![0, 0] slices_S3072x1024_S1024x1024_0_0 w pq aq⟩,
           ⟨S1024x1024, extractStridedSlice S1024x1024 ![1024, 0] w slices_S3072x1024_S1024x1024_1024_0⟩,
           ⟨S1024x1024, foldedBand ![2048, 0] slices_S3072x1024_S1024x1024_2048_0 w pv av⟩]
          concatenates_S1024x1024_S1024x1024_S1024x1024_S3072x1024_d0 (ix2 o k) := by
  unfold foldedWeight
  refine Eq.trans (truncf_apply (ψ := .bf16) _ bitsLt_bf16_f32 (ix2 k o)) ?_
  exact transpose_apply [1, 0] _ transposes_S3072x1024_S1024x3072_1_0 (ix2 k o) (ix2 o k) (fun c => by
    match c with
    | ⟨0, _⟩ => rfl
    | ⟨1, _⟩ => rfl)

theorem foldedWeight_q (k o : Fin 1024) :
    foldedWeight w aq pq av pv (ix2 k (qcol o))
      = w (ix2 (qcol o) k) + scale * ∑ r : Fin 16, pq (ix2 o r) * aq (ix2 r k) := by
  rw [foldedWeight_transposed]
  rw [concatenate_apply_piece (0 : Fin S3072x1024.rank) _ _ (ix2 (qcol o) k) 0 (by show 0 < 3; omega) S1024x1024 _ rfl rfl 0 rfl
    (ix2 o k) (fun c hc => by
      match c with
      | ⟨0, _⟩ => exact absurd rfl hc
      | ⟨1, _⟩ => rfl) (by show 0 + o.val = o.val; omega)]
  exact foldedBand_at _ _ w pq aq o k (qcol o) (by show o.val = 0 + o.val; omega) rfl

theorem foldedWeight_k (k o : Fin 1024) :
    foldedWeight w aq pq av pv (ix2 k (kcol o)) = w (ix2 (kcol o) k) := by
  rw [foldedWeight_transposed]
  rw [concatenate_apply_piece (0 : Fin S3072x1024.rank) _ _ (ix2 (kcol o) k) 1 (by show 1 < 3; omega) S1024x1024 _ rfl rfl 1024 rfl
    (ix2 o k) (fun c hc => by
      match c with
      | ⟨0, _⟩ => exact absurd rfl hc
      | ⟨1, _⟩ => rfl) (by show 1024 + o.val = 1024 + o.val; rfl)]
  exact extractStridedSlice_apply ![1024, 0] w slices_S3072x1024_S1024x1024_1024_0 (ix2 o k) (ix2 (kcol o) k) (fun c => by
    match c with
    | ⟨0, _⟩ => rfl
    | ⟨1, _⟩ => show k.val = 0 + k.val; omega)

theorem foldedWeight_v (k o : Fin 1024) :
    foldedWeight w aq pq av pv (ix2 k (vcol o))
      = w (ix2 (vcol o) k) + scale * ∑ r : Fin 16, pv (ix2 o r) * av (ix2 r k) := by
  rw [foldedWeight_transposed]
  rw [concatenate_apply_piece (0 : Fin S3072x1024.rank) _ _ (ix2 (vcol o) k) 2 (by show 2 < 3; omega) S1024x1024 _ rfl rfl 2048 rfl
    (ix2 o k) (fun c hc => by
      match c with
      | ⟨0, _⟩ => exact absurd rfl hc
      | ⟨1, _⟩ => rfl) (by show 2048 + o.val = 2048 + o.val; rfl)]
  exact foldedBand_at _ _ w pv av o k (vcol o) rfl rfl

end Cert.KernelIdeal.WeightValue

end
-- ==== Proof.KernelValue.lean ====
/-
  What the fused projection leaves in its result, as one function of the argument arrays (exact reading).

  The region writes its 16384×3072 result array block by block: grid point `t` writes rows 512·t … 512·t + 511,
  all 3072 columns, and each entry is the sum over the 1024 contracted positions of the activations' row against
  the folded weight's column, plus the bias of that column. The 32 blocks tile the array, so the array after the
  run is that function everywhere. The arrays the region stages are the host's: the activations flattened to
  16384 rows, the folded and transposed weight, the bias as a 1×3072 row. The final reshape gives the result
  its batch and position axes back.
-/
import proofs.«149950_j1468878815513_2_alg».proof.Proof.FrameIdeal
import proofs.«149950_j1468878815513_2_alg».proof.Proof.BlockEntry
import proofs.«149950_j1468878815513_2_alg».proof.Proof.WeightEntry
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Around Cert.KernelIdeal.BlockValue Cert.KernelIdeal.WeightValue

variable (m : (ℓ : Loc nD τ sig) → Buf (Elt Ideal) ℓ) (ρ : Dev nD → PrngReg)

/-! ## What the host prefix hands the region -/

/-- The activations, flattened to rows. -/
theorem staged_rows (c : Dev nD) : (V m c main_v15 : S16384x1024.Idx → EReal)
    = shapeCast S16384x1024 (m ((c : Thread nD τ).loc main_arg0)) shapeCasts_S4x4096x1024_S16384x1024 := by
  show StableHlo.after hostOps0 (fun b => m (c, b)) (Proc.devRef .tc main_v15) = _
  after_results
  rfl

/-- The bias, as a row. -/
theorem staged_bias (c : Dev nD) : (V m c main_v14 : S1x3072.Idx → EReal)
    = shapeCast S1x3072 (m ((c : Thread nD τ).loc main_arg2)) shapeCasts_S3072_S1x3072 := by
  show StableHlo.after hostOps0 (fun b => m (c, b)) (Proc.devRef .tc main_v14) = _
  after_results
  rfl

/-- The folded weight. The three bands are joined by an operation that takes its operands as a family, so their
    contents are read in a second pass, once the family is applied at its three literal positions. -/
theorem staged_weight (c : Dev nD) : (V m c main_v13 : S1024x3072.Idx → EReal)
    = foldedWeight (m ((c : Thread nD τ).loc main_arg1)) (m ((c : Thread nD τ).loc main_arg3)) (m ((c : Thread nD τ).loc main_arg4))
        (m ((c : Thread nD τ).loc main_arg5)) (m ((c : Thread nD τ).loc main_arg6)) := by
  show StableHlo.after hostOps0 (fun b => m (c, b)) (Proc.devRef .tc main_v13) = _
  after_results
  dsimp only [Matrix.cons_val_zero, Matrix.cons_val_one, Matrix.cons_val]
  repeat (first
    | rw [nullary_result] | rw [unary_result] | rw [binary_result]
    | (rw [nullary_result_ne]; rotate_left; decide)
    | (rw [unary_result_ne]; rotate_left; decide)
    | (rw [binary_result_ne]; rotate_left; decide))
  rfl

/-! ## The region's result array -/

/-- Rows against columns plus the column's bias. -/
def projected (X : S16384x1024.Idx → EReal) (Wt : S1024x3072.Idx → EReal) (B : S1x3072.Idx → EReal) :
    S16384x3072.Idx → EReal :=
  fun i => (∑ k : Fin 1024, X (ix2 (i 0) k) * Wt (ix2 k (i 1))) + B (ix2 (0 : Fin 1) (i 1))

theorem origin : (![0, 0] : Fin 2 → Nat) = fun _ => 0 := funext fun a => by fin_cases a <;> rfl

/-- The printed index maps over the grid: the activations' and the result's blocks move together down the rows,
    one block per point; the weight and the bias stay at their only block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored block at an entry, for any entry of the block. -/
theorem stored_entry (x : Vec Ideal S512x1024 .f32) (w : Vec Ideal S1024x3072 .bf16) (b : Vec Ideal S1x3072 .f32)
    (j : S512x3072.Idx) :
    k0_pay1 x w b j = (∑ k : Fin 1024, x (ix2 (j 0) k) * w (ix2 k (j 1))) + b (ix2 (0 : Fin 1) (j 1)) := by
  exact (congrArg (k0_pay1 x w b) (eq_ix2 j)).trans (stored_at x w b (j 0) (j 1))

/-- What grid point `t` writes back is block `t` of `projected` of the staged arrays. -/
theorem flushed_eq (c : Dev nD) (t : Fin cfg0.N) :
    (dats m 0 c).flushed 3 t
      = ((cfg0.win 3).blk t).view.read (Elt Ideal) (projected (V m c main_v15) (V m c main_v13) (V m c main_v14)) := by
  show (cfg0.win 3).cut (grid0.coords t) ((dats m 0 c).after 3 t) = _
  rw [after_o]
  unfold outBlock
  rw [View.canon_unit_zero origin]
  simp only [View.ld_unit_zero (S := S512x1024) origin, View.ld_unit_zero (S := S1024x3072) origin,
    View.ld_unit_zero (S := S1x3072) origin]
  obtain ⟨e00, e01, e10, e11, e20, e21, e30, e31⟩ := block_indices t
  funext j
  refine (stored_entry _ _ _ j).trans ?_
  let X : S16384x1024.Idx → EReal := V m c main_v15
  let W : S1024x3072.Idx → EReal := V m c main_v13
  let B : S1x3072.Idx → EReal := V m c main_v14
  show (∑ k : Fin 1024, X (((cfg0.win 0).blk t).view.emb (ix2 (j 0) k)) * W (((cfg0.win 1).blk t).view.emb (ix2 k (j 1))))
      + B (((cfg0.win 2).blk t).view.emb (ix2 (0 : Fin 1) (j 1)))
    = (∑ k : Fin 1024, X (ix2 ((((cfg0.win 3).blk t).view.emb j) 0) k) * W (ix2 k ((((cfg0.win 3).blk t).view.emb j) 1)))
      + B (ix2 (0 : Fin 1) ((((cfg0.win 3).blk t).view.emb j) 1))
  have hj0 : (j 0).val < 512 := (j 0).isLt
  have hj1 : (j 1).val < 3072 := (j 1).isLt
  have hx : ∀ k : Fin 1024, ((cfg0.win 0).blk t).view.emb (ix2 (j 0) k) = ix2 ((((cfg0.win 3).blk t).view.emb j) 0) k := fun k => by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  have hw : ∀ k : Fin 1024, ((cfg0.win 1).blk t).view.emb (ix2 k (j 1)) = ix2 k ((((cfg0.win 3).blk t).view.emb j) 1) := fun k => by
    funext a; apply Fin.ext
    match a with
    | ⟨0, _⟩ => show win0_1.index t (0 : Fin 2) * 1024 + 1 * k.val = k.val; omega
    | ⟨1, _⟩ => show win0_1.index t (1 : Fin 2) * 3072 + 1 * (j 1).val = win0_3.index t (1 : Fin 2) * 3072 + 1 * (j 1).val; omega
  have hb : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 3072 + 1 * (j 1).val = win0_3.index t (1 : Fin 2) * 3072 + 1 * (j 1).val; omega
  rw [hb]
  refine congrArg (· + _) (Finset.sum_congr rfl fun k _ => ?_)
  exact congrArg₂ (· * ·) (congrArg X (hx k)) (congrArg W (hw k))

/-- An entry of the result array lies in point `t`'s block iff each coordinate lies in the block's range. -/
theorem mem_block (t : Fin cfg0.N) (i : S16384x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v16).slice (win0_3.rect t)).set ↔ _
  rw [View.set_slice_whole, Rect.mem_set_unit]
  exact Iff.rfl

/-- The 32 blocks of 512 rows tile the 16384 rows: row `r` is in the block of point `r / 512`. -/
theorem covered (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  have hN : cfg0.N = 32 := N_0
  let t : Fin cfg0.N := ⟨(i 0).val / 512, by rw [hN]; omega⟩
  obtain ⟨-, -, -, -, -, -, e30, e31⟩ := block_indices t
  have e30' : win0_3.index t (0 : Fin 2) = (i 0).val / 512 := e30
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The result array after the run. -/
theorem result_array (c : Dev nD) :
    (dats m 0 c).arrAt 3 cfg0.N
      = projected (shapeCast S16384x1024 (m ((c : Thread nD τ).loc main_arg0)) shapeCasts_S4x4096x1024_S16384x1024)
          (foldedWeight (m ((c : Thread nD τ).loc main_arg1)) (m ((c : Thread nD τ).loc main_arg3)) (m ((c : Thread nD τ).loc main_arg4))
            (m ((c : Thread nD τ).loc main_arg5)) (m ((c : Thread nD τ).loc main_arg6)))
          (shapeCast S1x3072 (m ((c : Thread nD τ).loc main_arg2)) shapeCasts_S3072_S1x3072) := by
  rw [← staged_rows m c, ← staged_weight m c, ← staged_bias m c]
  exact (dats m 0 c).arrAt_eq_of_cover 3 _ (fun t _ => flushed_eq m c t) covered

/-! ## The program's result -/

/-- The kernel's result as one function of the seven argument arrays. -/
def kernelResult (x : FVec Ideal S4x4096x1024 .f32) (w : FVec Ideal S3072x1024 .f32) (bias : FVec Ideal S3072 .f32)
    (aq : FVec Ideal S16x1024 .f32) (pq : FVec Ideal S1024x16 .f32) (av : FVec Ideal S16x1024 .f32) (pv : FVec Ideal S1024x16 .f32) :
    S4x4096x3072.Idx → EReal :=
  shapeCast S4x4096x3072
    (projected (shapeCast S16384x1024 x shapeCasts_S4x4096x1024_S16384x1024) (foldedWeight w aq pq av pv)
      (shapeCast S1x3072 bias shapeCasts_S3072_S1x3072))
    shapeCasts_S16384x3072_S4x4096x3072

/-- The final reshape reads the region's result array. -/
theorem result_after_tail (c : Dev nD) :
    (Pipeline.afterTail₀ cfgs (dats m) 0 (V0 m) [hostOps1] c main_v17 : S4x4096x3072.Idx → EReal)
      = kernelResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v17) = _
  after_results
  have e := (Pipeline.withArrays_arr spec0 launch0.win.arr_inj c (V0 m c) (fun w => (dats m 0 c).arrAt w cfg0.N) 3).trans
    (result_array m c)
  show (fun i => shapeCast S4x4096x3072
      (Pipeline.withArrays spec0 c (V0 m c) (fun w => (dats m 0 c).arrAt w cfg0.N) (Proc.devRef .tc main_v16))
      shapeCasts_S16384x3072_S4x4096x3072 i) = _
  rw [e]
  rfl

/-! ## The run, with the result named -/

/-- Every weakly fair execution of @main terminates without a fault, with the result at `kernelResult` of the
    launch contents of the seven argument arrays, and those arrays unchanged. -/
theorem run_value : θ_run defs (onTc (τ := τ) (main (F := Ideal))) ⟨m, fun _ => 0, ρ⟩ (fun r => ∀ c : Dev nD,
      r.2.mem ((c.tc : Thread nD τ).loc main_v17)
        = kernelResult (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v17 (Pipeline.mem_restRefs_of main_v17 (by decide) (by decide))).trans (result_after_tail m c),
      ((h c).2 main_arg0 (Pipeline.mem_restRefs_of main_arg0 (by decide) (by decide))).trans (W_arg m (dats m) c (by simp [argRefs])),
      ((h c).2 main_arg1 (Pipeline.mem_restRefs_of main_arg1 (by decide) (by decide))).trans (W_arg m (dats m) c (by simp [argRefs])),
      ((h c).2 main_arg2 (Pipeline.mem_restRefs_of main_arg2 (by decide) (by decide))).trans (W_arg m (dats m) c (by simp [argRefs])),
      ((h c).2 main_arg3 (Pipeline.mem_restRefs_of main_arg3 (by decide) (by decide))).trans (W_arg m (dats m) c (by simp [argRefs])),
      ((h c).2 main_arg4 (Pipeline.mem_restRefs_of main_arg4 (by decide) (by decide))).trans (W_arg m (dats m) c (by simp [argRefs])),
      ((h c).2 main_arg5 (Pipeline.mem_restRefs_of main_arg5 (by decide) (by decide))).trans (W_arg m (dats m) c (by simp [argRefs])),
      ((h c).2 main_arg6 (Pipeline.mem_restRefs_of main_arg6 (by decide) (by decide))).trans (W_arg m (dats m) c (by simp [argRefs]))⟩)
    (run_main m ρ)

end Cert.KernelIdeal.ArrayValue

end
-- ==== Proof.KernelEntry.lean ====
/-
  The kernel's result, entry by entry: at batch `b`, position `s`, column `o` it is the row `x[b, s, ·]`
  against column `o` of the folded weight, plus `bias[o]`. The flattening of (b, s) to the row 4096·b + s
  on the way in and its inverse on the way out cancel, and the bias row's only row is row 0.
-/
import proofs.«149950_j1468878815513_2_alg».proof.Proof.KernelValue

noncomputable section

namespace Cert.KernelIdeal.ArrayValue

open Idealize.ShloMosaic Idealize.ShloMosaic.ValueIdx
open Cert.KernelIdeal Cert.KernelIdeal.Gen Cert.KernelIdeal.WeightValue

variable (x : FVec Ideal S4x4096x1024 .f32) (w : FVec Ideal S3072x1024 .f32) (bias : FVec Ideal S3072 .f32)
  (aq : FVec Ideal S16x1024 .f32) (pq : FVec Ideal S1024x16 .f32) (av : FVec Ideal S16x1024 .f32) (pv : FVec Ideal S1024x16 .f32)

theorem kernelResult_at (b : Fin 4) (s : Fin 4096) (o : Fin 3072) :
    kernelResult x w bias aq pq av pv (ix3 b s o)
      = (∑ k : Fin 1024, x (ix3 b s k) * foldedWeight w aq pq av pv (ix2 k o)) + bias (ix1 o) := by
  have hb := b.isLt
  have hs := s.isLt
  have hrow : b.val * 4096 + s.val < 16384 := by omega
  unfold kernelResult
  rw [shapeCast_apply _ shapeCasts_S16384x3072_S4x4096x3072 (ix3 b s o) (ix2 (⟨b.val * 4096 + s.val, hrow⟩ : Fin 16384) o) (by
    rw [Shape.rowMajor_val_two, Shape.rowMajor_val_three]; rfl)]
  have hx : ∀ k : Fin 1024, shapeCast S16384x1024 x shapeCasts_S4x4096x1024_S16384x1024
      (ix2 (⟨b.val * 4096 + s.val, hrow⟩ : Fin 16384) k) = x (ix3 b s k) := fun k =>
    shapeCast_apply x _ _ (ix3 b s k) (by rw [Shape.rowMajor_val_two, Shape.rowMajor_val_three]; rfl)
  have hbias : shapeCast S1x3072 bias shapeCasts_S3072_S1x3072 (ix2 (0 : Fin 1) o) = bias (ix1 o) :=
    shapeCast_apply bias _ _ (ix1 o) (by
      rw [Shape.rowMajor_val_one, Shape.rowMajor_val_two]; show o.val = 0 * 3072 + o.val; omega)
  show (∑ k : Fin 1024, shapeCast S16384x1024 x shapeCasts_S4x4096x1024_S16384x1024 (ix2 (⟨b.val * 4096 + s.val, hrow⟩ : Fin 16384) k)
      * foldedWeight w aq pq av pv (ix2 k o)) + shapeCast S1x3072 bias shapeCasts_S3072_S1x3072 (ix2 (0 : Fin 1) o) = _
  rw [hbias]
  exact congrArg (· + _) (Finset.sum_congr rfl fun k _ => by rw [hx k])

end Cert.KernelIdeal.ArrayValue

end
-- ==== Proof.ReferenceEntry.lean ====
/-
  The reference, entry by entry, at the exact real-number reading of floats.

  At batch `b`, position `s` and output column `o` the reference's result is the base projection
      base(b, s, o) = Σ_k x[b, s, k] · w[o, k] + bias[o],
  to which, in the first band of 1024 columns (queries) and in the last (values), it adds the adapter's
  contribution computed in two steps and scaled by the constant 1/16:
      (Σ_r (Σ_k x[b, s, k] · a[r, k]) · p[o', r]) · scale,        o' the column inside the band;
  the middle band (keys) is the base projection alone. The three bands are slices of the base projection put
  back side by side, so the column `o` of the result is read in the band that holds it.
-/
import proofs.«149950_j1468878815513_2_alg».proof.Proof.Gen.ReferenceIdeal.Read
import Idealize.ShloMosaic.Lib.Pipeline.Value
import Idealize.ShloMosaic.Lib.ValueIdx

noncomputable section

namespace Cert.ReferenceIdeal.Entry

open Cert.ReferenceIdeal Cert.ReferenceIdeal.Gen Cert.ReferenceIdeal.Read Idealize.ShloMosaic Idealize.ShloMosaic.ValueIdx

/-- The adapters' scaling constant, as the extended real its bit pattern denotes. -/
abbrev scale : EReal := Ideal.ofBits .f32 0x3D800000#32

/-- A column inside the query band, the key band, the value band, as a column of the 3072. -/
abbrev qcol (o : Fin 1024) : Fin 3072 := ⟨o.val, by have := o.isLt; omega⟩
abbrev kcol (o : Fin 1024) : Fin 3072 := ⟨1024 + o.val, by have := o.isLt; omega⟩
abbrev vcol (o : Fin 1024) : Fin 3072 := ⟨2048 + o.val, by have := o.isLt; omega⟩

variable (x0 : (⟨S4x4096x1024, .f32⟩ : BufTy).Contents (Elt Ideal)) (x1 : (⟨S3072x1024, .f32⟩ : BufTy).Contents (Elt Ideal)) (x2 : (⟨S3072, .f32⟩ : BufTy).Contents (Elt Ideal))

/-- The base projection with its bias. -/
theorem base_at (b : Fin 4) (s : Fin 4096) (o : Fin 3072) :
    val_main_v3 (F := Ideal) x0 x1 x2 (ix3 b s o) = (∑ k : Fin 1024, x0 (ix3 b s k) * x1 (ix2 o k)) + x2 (ix1 o) := by
  rw [val_main_v3_apply, val_main_v0_apply, val_main_v2_apply, val_main_v1_apply]
  have e1 : ∀ k, lidx_main_v0 (ix3 b s o) k = ix3 b s k := fun k => funext fun a => by
    match a with
    | ⟨0, _⟩ => rfl
    | ⟨1, _⟩ => rfl
    | ⟨2, _⟩ => rfl
  have e2 : ∀ k, ridx_main_v0 (ix3 b s o) k = ix2 o k := fun k => funext fun a => by
    match a with
    | ⟨0, _⟩ => rfl
    | ⟨1, _⟩ => rfl
  have e3 : idx_main_v1 (idx_main_v2 (ix3 b s o)) = ix1 o := funext fun a => by
    match a with
    | ⟨0, _⟩ => rfl
  simp only [e1, e2, e3]
  rfl

/-- An adapter's contribution before scaling: the rank-16 intermediate against the up-projection's row. -/
theorem adapter_q_at (x3 : (⟨S16x1024, .f32⟩ : BufTy).Contents (Elt Ideal)) (x4 : (⟨S1024x16, .f32⟩ : BufTy).Contents (Elt Ideal))
    (b : Fin 4) (s : Fin 4096) (o : Fin 1024) :
    val_main_v10 (F := Ideal) x0 x3 x4 (ix3 b s o)
      = (∑ r : Fin 16, (∑ k : Fin 1024, x0 (ix3 b s k) * x3 (ix2 r k)) * x4 (ix2 o r)) * scale := by
  rw [val_main_v10_apply, val_main_v8_apply, val_main_v9_apply, val_main_cst_apply]
  have e1 : ∀ r, lidx_main_v8 (ix3 b s o) r = ix3 b s r := fun r => funext fun a => by
    match a with
    | ⟨0, _⟩ => rfl
    | ⟨1, _⟩ => rfl
    | ⟨2, _⟩ => rfl
  have e2 : ∀ r, ridx_main_v8 (ix3 b s o) r = ix2 o r := fun r => funext fun a => by
    match a with
    | ⟨0, _⟩ => rfl
    | ⟨1, _⟩ => rfl
  have e3 : ∀ (r : Fin 16) k, lidx_main_v7 (ix3 b s r) k = ix3 b s k := fun r k => funext fun a => by
    match a with
    | ⟨0, _⟩ => rfl
    | ⟨1, _⟩ => rfl
    | ⟨2, _⟩ => rfl
  have e4 : ∀ (r : Fin 16) k, ridx_main_v7 (ix3 b s r) k = ix2 r k := fun r k => funext fun a => by
    match a with
    | ⟨0, _⟩ => rfl
    | ⟨1, _⟩ => rfl
  simp only [e1, e2, val_main_v7_apply, e3, e4]
  rfl

theorem adapter_v_at (x5 : (⟨S16x1024, .f32⟩ : BufTy).Contents (Elt Ideal)) (x6 : (⟨S1024x16, .f32⟩ : BufTy).Contents (Elt Ideal))
    (b : Fin 4) (s : Fin 4096) (o : Fin 1024) :
    val_main_v15 (F := Ideal) x0 x5 x6 (ix3 b s o)
      = (∑ r : Fin 16, (∑ k : Fin 1024, x0 (ix3 b s k) * x5 (ix2 r k)) * x6 (ix2 o r)) * scale := by
  rw [val_main_v15_apply, val_main_v13_apply, val_main_v14_apply, val_main_cst_0_apply]
  have e1 : ∀ r, lidx_main_v13 (ix3 b s o) r = ix3 b s r := fun r => funext fun a => by
    match a with
    | ⟨0, _⟩ => rfl
    | ⟨1, _⟩ => rfl
    | ⟨2, _⟩ => rfl
  have e2 : ∀ r, ridx_main_v13 (ix3 b s o) r = ix2 o r := fun r => funext fun a => by
    match a with
    | ⟨0, _⟩ => rfl
    | ⟨1, _⟩ => rfl
  have e3 : ∀ (r : Fin 16) k, lidx_main_v12 (ix3 b s r) k = ix3 b s k := fun r k => funext fun a => by
    match a with
    | ⟨0, _⟩ => rfl
    | ⟨1, _⟩ => rfl
    | ⟨2, _⟩ => rfl
  have e4 : ∀ (r : Fin 16) k, ridx_main_v12 (ix3 b s r) k = ix2 r k := fun r k => funext fun a => by
    match a with
    | ⟨0, _⟩ => rfl
    | ⟨1, _⟩ => rfl
  simp only [e1, e2, val_main_v12_apply, e3, e4]
  rfl

/-- The three slices of the base projection, each read in its band. -/
theorem slice_q_at (b : Fin 4) (s : Fin 4096) (o : Fin 1024) :
    val_main_v4 (F := Ideal) x0 x1 x2 (ix3 b s o) = val_main_v3 (F := Ideal) x0 x1 x2 (ix3 b s (qcol o)) := by
  rw [val_main_v4_apply]
  refine congrArg _ (funext fun a => ?_)
  match a with
  | ⟨0, _⟩ => rfl
  | ⟨1, _⟩ => rfl
  | ⟨2, _⟩ => rfl
theorem slice_k_at (b : Fin 4) (s : Fin 4096) (o : Fin 1024) :
    val_main_v5 (F := Ideal) x0 x1 x2 (ix3 b s o) = val_main_v3 (F := Ideal) x0 x1 x2 (ix3 b s (kcol o)) := by
  rw [val_main_v5_apply]
  refine congrArg _ (funext fun a => ?_)
  match a with
  | ⟨0, _⟩ => rfl
  | ⟨1, _⟩ => rfl
  | ⟨2, _⟩ => rfl
theorem slice_v_at (b : Fin 4) (s : Fin 4096) (o : Fin 1024) :
    val_main_v6 (F := Ideal) x0 x1 x2 (ix3 b s o) = val_main_v3 (F := Ideal) x0 x1 x2 (ix3 b s (vcol o)) := by
  rw [val_main_v6_apply]
  refine congrArg _ (funext fun a => ?_)
  match a with
  | ⟨0, _⟩ => rfl
  | ⟨1, _⟩ => rfl
  | ⟨2, _⟩ => rfl

variable (x3 : (⟨S16x1024, .f32⟩ : BufTy).Contents (Elt Ideal)) (x4 : (⟨S1024x16, .f32⟩ : BufTy).Contents (Elt Ideal))
  (x5 : (⟨S16x1024, .f32⟩ : BufTy).Contents (Elt Ideal)) (x6 : (⟨S1024x16, .f32⟩ : BufTy).Contents (Elt Ideal))

/-- The result in the query band. -/
theorem result_q (b : Fin 4) (s : Fin 4096) (o : Fin 1024) :
    val_main_v17 (F := Ideal) x0 x1 x2 x3 x4 x5 x6 (ix3 b s (qcol o))
      = ((∑ k : Fin 1024, x0 (ix3 b s k) * x1 (ix2 (qcol o) k)) + x2 (ix1 (qcol o)))
        + (∑ r : Fin 16, (∑ k : Fin 1024, x0 (ix3 b s k) * x3 (ix2 r k)) * x4 (ix2 o r)) * scale := by
  unfold val_main_v17
  rw [concatenate_apply_piece (2 : Fin S4x4096x3072.rank) _ _ (ix3 b s (qcol o)) 0 (by show 0 < 3; omega) S4x4096x1024 _ rfl rfl 0 rfl
    (ix3 b s o) (fun c hc => by
      match c with
      | ⟨0, _⟩ => rfl
      | ⟨1, _⟩ => rfl
      | ⟨2, _⟩ => exact absurd rfl hc) (by show 0 + o.val = o.val; omega)]
  rw [val_main_v11_apply, slice_q_at, base_at, adapter_q_at]
  rfl

/-- The result in the key band. -/
theorem result_k (b : Fin 4) (s : Fin 4096) (o : Fin 1024) :
    val_main_v17 (F := Ideal) x0 x1 x2 x3 x4 x5 x6 (ix3 b s (kcol o))
      = (∑ k : Fin 1024, x0 (ix3 b s k) * x1 (ix2 (kcol o) k)) + x2 (ix1 (kcol o)) := by
  unfold val_main_v17
  rw [concatenate_apply_piece (2 : Fin S4x4096x3072.rank) _ _ (ix3 b s (kcol o)) 1 (by show 1 < 3; omega) S4x4096x1024 _ rfl rfl 1024 rfl
    (ix3 b s o) (fun c hc => by
      match c with
      | ⟨0, _⟩ => rfl
      | ⟨1, _⟩ => rfl
      | ⟨2, _⟩ => exact absurd rfl hc) (by show 1024 + o.val = 1024 + o.val; rfl)]
  rw [slice_k_at, base_at]

/-- The result in the value band. -/
theorem result_v (b : Fin 4) (s : Fin 4096) (o : Fin 1024) :
    val_main_v17 (F := Ideal) x0 x1 x2 x3 x4 x5 x6 (ix3 b s (vcol o))
      = ((∑ k : Fin 1024, x0 (ix3 b s k) * x1 (ix2 (vcol o) k)) + x2 (ix1 (vcol o)))
        + (∑ r : Fin 16, (∑ k : Fin 1024, x0 (ix3 b s k) * x5 (ix2 r k)) * x6 (ix2 o r)) * scale := by
  unfold val_main_v17
  rw [concatenate_apply_piece (2 : Fin S4x4096x3072.rank) _ _ (ix3 b s (vcol o)) 2 (by show 2 < 3; omega) S4x4096x1024 _ rfl rfl 2048 rfl
    (ix3 b s o) (fun c hc => by
      match c with
      | ⟨0, _⟩ => rfl
      | ⟨1, _⟩ => rfl
      | ⟨2, _⟩ => exact absurd rfl hc) (by show 2048 + o.val = 2048 + o.val; rfl)]
  rw [val_main_v16_apply, slice_v_at, base_at, adapter_v_at]
  rfl

end Cert.ReferenceIdeal.Entry

end
-- ==== Proof.LibLowRankFold.lean ====
/-
  Folding a low-rank adapter into a weight row, on the extended reals.

  With every factor a real number, a row of activations `X` against the folded weight
  `W k + C · Σ_r P r · A r k` is the base product plus the adapter applied in two steps and scaled:
      Σ_k X k · (W k + C · Σ_r P r · A r k) + β  =  (Σ_k X k · W k + β) + (Σ_r (Σ_k X k · A r k) · P r) · C.
  The identity is distributivity and an exchange of the two finite sums, so it needs the factors finite (on the
  extended reals a product does not distribute over a sum of opposite infinities); the additive term `β` may be
  any extended real, since addition there is associative and commutative.
-/
import Mathlib.Data.EReal.Operations
import Mathlib.Algebra.BigOperators.Ring.Finset
import Mathlib.Algebra.BigOperators.Group.Finset.Basic
import Mathlib.Algebra.BigOperators.Group.Finset.Sigma
import Mathlib.Tactic.Ring

namespace LowRankFold

open Finset

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: distribute, then exchange the sum over the rank with the sum over the row. -/
theorem fold_real {ι κ : Type*} [Fintype ι] [Fintype κ] (x w : ι → ℝ) (a : κ → ι → ℝ) (p : κ → ℝ) (c : ℝ) :
    ∑ k, x k * (w k + c * ∑ r, p r * a r k) = ∑ k, x k * w k + (∑ r, (∑ k, x k * a r k) * p r) * c := by
  have h1 : ∀ k, x k * (w k + c * ∑ r, p r * a r k) = x k * w k + ∑ r, x k * a r k * p r * c := fun k => by
    rw [mul_add, Finset.mul_sum, Finset.mul_sum]
    congr 1
    exact Finset.sum_congr rfl fun r _ => by ring
  have h2 : (∑ r, (∑ k, x k * a r k) * p r) * c = ∑ r, ∑ k, x k * a r k * p r * c := by
    rw [Finset.sum_mul]
    exact Finset.sum_congr rfl fun r _ => by rw [Finset.sum_mul, Finset.sum_mul]
  rw [Finset.sum_congr rfl fun k _ => h1 k, Finset.sum_add_distrib, h2, Finset.sum_comm]

/-- The identity on the extended reals, for factors that are real numbers and any additive term. -/
theorem fold_ereal {ι κ : Type*} [Fintype ι] [Fintype κ] (X W : ι → EReal) (A : κ → ι → EReal) (P : κ → EReal) (C β : EReal)
    (hX : ∀ k, ∃ v : ℝ, X k = v) (hW : ∀ k, ∃ v : ℝ, W k = v) (hA : ∀ r k, ∃ v : ℝ, A r k = v)
    (hP : ∀ r, ∃ v : ℝ, P r = v) (hC : ∃ v : ℝ, C = v) :
    (∑ k, X k * (W k + C * ∑ r, P r * A r k)) + β
      = ((∑ k, X k * W k) + β) + (∑ r, (∑ k, X k * A r k) * P r) * C := by
  choose x hx using hX
  choose w hw using hW
  choose a ha using hA
  choose p hp using hP
  obtain ⟨c, rfl⟩ := hC
  have e1 : (∑ k, X k * (W k + (c : EReal) * ∑ r, P r * A r k))
      = ((∑ k, x k * (w k + c * ∑ r, p r * a r k) : ℝ) : EReal) := by
    rw [coe_sum]
    refine Finset.sum_congr rfl fun k _ => ?_
    rw [hx k, hw k, EReal.coe_mul, EReal.coe_add, EReal.coe_mul, coe_sum]
    congr 3
    exact Finset.sum_congr rfl fun r _ => by rw [hp r, ha r k, EReal.coe_mul]
  have e2 : (∑ k, X k * W k) = ((∑ k, x k * w k : ℝ) : EReal) := by
    rw [coe_sum]
    exact Finset.sum_congr rfl fun k _ => by rw [hx k, hw k, EReal.coe_mul]
  have e3 : (∑ r, (∑ k, X k * A r k) * P r) * (c : EReal)
      = (((∑ r, (∑ k, x k * a r k) * p r) * c : ℝ) : EReal) := by
    rw [EReal.coe_mul, coe_sum]
    congr 1
    refine Finset.sum_congr rfl fun r _ => ?_
    rw [hp r, EReal.coe_mul, coe_sum]
    congr 1
    exact Finset.sum_congr rfl fun k _ => by rw [hx k, ha r k, EReal.coe_mul]
  rw [e1, e2, e3, fold_real, EReal.coe_add, add_right_comm]

end LowRankFold
-- ==== Proof.ScaleConst.lean ====
/-
  The adapters' scaling constant: the float 0.0625 denotes the real number 1/16 (the one place the bit pattern
  is evaluated; what the proof needs of it is only that it is a real number, not an infinity).
-/
import Idealize.ShloMosaic.PureOps.Ideal

noncomputable section

namespace Cert.Consts

open Idealize.ShloMosaic

theorem ofBits_sixteenth : Ideal.ofBits .f32 0x3D800000#32 = ((1 / 16 : ℝ) : EReal) := by
  simp [Ideal.ofBits, Ideal.ieee, -EReal.coe_mul]; norm_num

theorem scale_real : ∃ v : ℝ, Ideal.ofBits .f32 0x3D800000#32 = v := ⟨_, ofBits_sixteenth⟩

end Cert.Consts

end
-- ==== Proof.TwoSidesAgree.lean ====
/-
  The two sides agree: for argument arrays of real numbers the kernel's result is the reference's, entry by entry.

  In the key band both sides are the base projection. In the query and value bands the kernel multiplies the
  activations' row by the weight row with the adapter folded in, while the reference adds to the base projection
  the adapter applied in two steps and scaled; the two are equal by distributivity and an exchange of the two
  finite sums, which hold because every factor is a real number.
-/
import proofs.«149950_j1468878815513_2_alg».proof.Proof.KernelEntry
import proofs.«149950_j1468878815513_2_alg».proof.Proof.ReferenceEntry
import proofs.«149950_j1468878815513_2_alg».proof.Proof.LibLowRankFold
import proofs.«149950_j1468878815513_2_alg».proof.Proof.ScaleConst

noncomputable section

namespace Cert.Proof.Agree

open Idealize.ShloMosaic Idealize.ShloMosaic.ValueIdx
open Cert.KernelIdeal.ArrayValue Cert.KernelIdeal.WeightValue

theorem result_eq (x : FVec Ideal Cert.KernelIdeal.S4x4096x1024 .f32) (w : FVec Ideal Cert.KernelIdeal.S3072x1024 .f32)
    (bias : FVec Ideal Cert.KernelIdeal.S3072 .f32) (aq : FVec Ideal Cert.KernelIdeal.S16x1024 .f32)
    (pq : FVec Ideal Cert.KernelIdeal.S1024x16 .f32) (av : FVec Ideal Cert.KernelIdeal.S16x1024 .f32)
    (pv : FVec Ideal Cert.KernelIdeal.S1024x16 .f32)
    (hx : ∀ i, ∃ r : ℝ, x i = r) (hw : ∀ i, ∃ r : ℝ, w i = r) (haq : ∀ i, ∃ r : ℝ, aq i = r) (hpq : ∀ i, ∃ r : ℝ, pq i = r)
    (hav : ∀ i, ∃ r : ℝ, av i = r) (hpv : ∀ i, ∃ r : ℝ, pv i = r) :
    kernelResult x w bias aq pq av pv = Cert.ReferenceIdeal.Read.val_main_v17 (F := Ideal) x w bias aq pq av pv := by
  funext i
  obtain ⟨b, s, o, rfl⟩ : ∃ (b : Fin 4) (s : Fin 4096) (o : Fin 3072), i = ix3 b s o := ⟨i 0, i 1, i 2, eq_ix3 i⟩
  rw [kernelResult_at]
  have ho := o.isLt
  by_cases h1 : o.val < 1024
  · obtain ⟨o', rfl⟩ : ∃ o' : Fin 1024, o = qcol o' := ⟨⟨o.val, h1⟩, rfl⟩
    have hk : ∀ k : Fin 1024, foldedWeight w aq pq av pv (ix2 k (qcol o'))
        = w (ix2 (qcol o') k) + scale * ∑ r : Fin 16, pq (ix2 o' r) * aq (ix2 r k) := fun k => foldedWeight_q w aq pq av pv k o'
    simp only [hk]
    refine Eq.trans ?_ (Cert.ReferenceIdeal.Entry.result_q x w bias aq pq av pv b s o').symm
    exact LowRankFold.fold_ereal (fun k : Fin 1024 => x (ix3 b s k)) (fun k => w (ix2 (qcol o') k))
      (fun (r : Fin 16) k => aq (ix2 r k)) (fun r => pq (ix2 o' r)) scale (bias (ix1 (qcol o')))
      (fun k => hx _) (fun k => hw _) (fun r k => haq _) (fun r => hpq _) Cert.Consts.scale_real
  · by_cases h2 : o.val < 2048
    · obtain ⟨o', rfl⟩ : ∃ o' : Fin 1024, o = kcol o' :=
        ⟨⟨o.val - 1024, by omega⟩, Fin.ext (by show o.val = 1024 + (o.val - 1024); omega)⟩
      have hk : ∀ k : Fin 1024, foldedWeight w aq pq av pv (ix2 k (kcol o')) = w (ix2 (kcol o') k) :=
        fun k => foldedWeight_k w aq pq av pv k o'
      simp only [hk]
      exact (Cert.ReferenceIdeal.Entry.result_k x w bias aq pq av pv b s o').symm
    · obtain ⟨o', rfl⟩ : ∃ o' : Fin 1024, o = vcol o' :=
        ⟨⟨o.val - 2048, by omega⟩, Fin.ext (by show o.val = 2048 + (o.val - 2048); omega)⟩
      have hk : ∀ k : Fin 1024, foldedWeight w aq pq av pv (ix2 k (vcol o'))
          = w (ix2 (vcol o') k) + scale * ∑ r : Fin 16, pv (ix2 o' r) * av (ix2 r k) := fun k => foldedWeight_v w aq pq av pv k o'
      simp only [hk]
      refine Eq.trans ?_ (Cert.ReferenceIdeal.Entry.result_v x w bias aq pq av pv b s o').symm
      exact LowRankFold.fold_ereal (fun k : Fin 1024 => x (ix3 b s k)) (fun k => w (ix2 (vcol o') k))
        (fun (r : Fin 16) k => av (ix2 r k)) (fun r => pv (ix2 o' r)) scale (bias (ix1 (vcol o')))
        (fun k => hx _) (fun k => hw _) (fun r k => hav _) (fun r => hpv _) Cert.Consts.scale_real

end Cert.Proof.Agree

end
-- ==== Proof.FiniteEntries.lean ====
/-
  What the precondition says: every entry of every argument array is a real number.

  The precondition is the conjunction, over the seven argument arrays, of "every entry's absolute value is below
  +∞". At the exact reading an entry is an extended real, its absolute value is `max x (-x)`, and that is below
  +∞ exactly when `x` is neither infinity, that is, when `x` is a real number.
-/
import proofs.«149950_j1468878815513_2_alg».proof.Pre_finite_inputs
import proofs.«149950_j1468878815513_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

/-- The word the precondition compares against denotes +∞. -/
theorem inf_word : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

/-- One conjunct of the precondition, read at an entry. -/
theorem entries_real {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r :=
  real_of_abs_lt (x i) (Host.reduce_andi_all _ _ hr hu ix0 e i)

/-- The precondition, conjunct by conjunct. -/
theorem all_real (a0 : FVec Ideal S4x4096x1024 .f32) (a1 : FVec Ideal S3072x1024 .f32) (a2 : FVec Ideal S3072 .f32)
    (a3 : FVec Ideal S16x1024 .f32) (a4 : FVec Ideal S1024x16 .f32) (a5 : FVec Ideal S16x1024 .f32) (a6 : FVec Ideal S1024x16 .f32)
    (h : fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ix0
  dsimp only [fn, fn_part1] at h0
  obtain ⟨h0, e6⟩ := IntOp.andi_eq_one.1 (show IntOp.andi _ _ = 1#1 from h0)
  obtain ⟨h0, e5⟩ := IntOp.andi_eq_one.1 (show IntOp.andi _ _ = 1#1 from h0)
  obtain ⟨h0, e4⟩ := IntOp.andi_eq_one.1 (show IntOp.andi _ _ = 1#1 from h0)
  obtain ⟨h0, e3⟩ := IntOp.andi_eq_one.1 (show IntOp.andi _ _ = 1#1 from h0)
  obtain ⟨h0, e2⟩ := IntOp.andi_eq_one.1 (show IntOp.andi _ _ = 1#1 from h0)
  obtain ⟨e0, e1⟩ := IntOp.andi_eq_one.1 (show IntOp.andi _ _ = 1#1 from h0)
  exact ⟨entries_real a0 _ _ _ e0, entries_real a1 _ _ _ e1, entries_real a2 _ _ _ e2, entries_real a3 _ _ _ e3,
    entries_real a4 _ _ _ e4, entries_real a5 _ _ _ e5, entries_real a6 _ _ _ e6⟩

end Cert.Pre_finite_inputs.Decode

end
-- ==== Proof.lean ====
/-
  A fused QKV projection with rank-16 adapters on the queries and the values, against its reference.

  The kernel folds each adapter into the base weight on the host (w + (1/16)·p·a, band by band), transposes the
  folded weight, and computes x·wᵀ + bias in ONE pipelined product over 32 blocks of 512 rows. The reference
  computes the base projection x·wᵀ + bias and adds, in the query and value bands, the adapter applied to the
  activations in two steps, (x·aᵀ)·pᵀ, scaled by 1/16. Read with floats as exact extended reals and every
  argument finite, the two are the same numbers: the fold is distributivity and an exchange of finite sums.

  The three frames: each program's run terminates without a fault and leaves its arguments as launched (the
  kernel's at the word level and at the exact reading from the pipeline's frame theorem around the region; the
  reference's from its straight-line run). The idealization rewrote nothing, so there is nothing to preserve.
  The equivalence: both runs, from memories agreeing on the arguments, end with one and the same result array.
-/
import proofs.«149950_j1468878815513_2_alg».proof.Defs
import proofs.«149950_j1468878815513_2_alg».proof.Proof.Gen.Kernel
import proofs.«149950_j1468878815513_2_alg».proof.Proof.Gen.Kernel.Skeleton
import proofs.«149950_j1468878815513_2_alg».proof.Proof.Gen.Kernel.Launch
import proofs.«149950_j1468878815513_2_alg».proof.Proof.Gen.Kernel.Points
import proofs.«149950_j1468878815513_2_alg».proof.Proof.Gen.KernelIdeal
import proofs.«149950_j1468878815513_2_alg».proof.Proof.Gen.KernelIdeal.Skeleton
import proofs.«149950_j1468878815513_2_alg».proof.Proof.Gen.KernelIdeal.Launch
import proofs.«149950_j1468878815513_2_alg».proof.Proof.Gen.KernelIdeal.Points
import proofs.«149950_j1468878815513_2_alg».proof.Proof.Gen.ReferenceIdeal
import proofs.«149950_j1468878815513_2_alg».proof.Proof.Gen.ReferenceIdeal.Run
import proofs.«149950_j1468878815513_2_alg».proof.Proof.Gen.ReferenceIdeal.Read
import proofs.«149950_j1468878815513_2_alg».proof.Proof.Gen.Pre_finite_inputs
import proofs.«149950_j1468878815513_2_alg».proof.Proof.FrameBits
import proofs.«149950_j1468878815513_2_alg».proof.Proof.FrameIdeal
import proofs.«149950_j1468878815513_2_alg».proof.Proof.KernelValue
import proofs.«149950_j1468878815513_2_alg».proof.Proof.TwoSidesAgree
import proofs.«149950_j1468878815513_2_alg».proof.Proof.FiniteEntries
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Around.frame m ρ

/-- So does its reading over the extended reals. -/
theorem frame_kernel_ideal : Cert.frame_KernelIdeal := fun m ρ _ => Cert.KernelIdeal.Around.frame m ρ

/-- The reference is straight-line host code: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- Both runs end at the kernel's function of the arguments: the kernel's by its value run, the reference's
    because, the arguments being finite, its own term is that function. -/
theorem algebraic : Cert.algebraic_KernelIdeal_ReferenceIdeal := by
  intro m ρ m' ρ' hpre hagree
  refine ⟨_, Cert.KernelIdeal.ArrayValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  obtain ⟨r0, r1, r2, r3, r4, r5, r6⟩ := Cert.Pre_finite_inputs.Decode.all_real _ _ _ _ _ _ _ (hpre c)
  rw [h0, h1, h2, h3, h4, h5, h6]
  exact (Cert.Proof.Agree.result_eq _ _ _ _ _ _ _ r0 r1 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
